-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S256x128 : Shape := ⟨2, ![256, 128]⟩
abbrev S8x128 : Shape := ⟨2, ![8, 128]⟩
abbrev S128x8192 : Shape := ⟨2, ![128, 8192]⟩
abbrev S256x8192 : Shape := ⟨2, ![256, 8192]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 21
  | .vmem => 3
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S256x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S8192x128, .bf16⟩
  | .local _ .vmem, ⟨1, _⟩ => ⟨S8x128, .f32⟩
  | .local _ .vmem, ⟨2, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_mult2 (i : grid0.Coords) : BitVec 32 :=
  let arg0 : BitVec 32 := BitVec.ofNat 32 (i 0).val
  let c256_i32 : BitVec 32 := 256#32
  let v0 : BitVec 32 := Scalar.muli arg0 c256_i32
  let v1 : BitVec 32 := v0
  let c4096_i32 : BitVec 32 := 4096#32
  let c0_i32 : BitVec 32 := 0#32
  let v2 : BitVec 1 := Scalar.cmpi .eq c4096_i32 c0_i32
  let c1_i32 : BitVec 32 := 1#32
  let v3 : BitVec 32 := Scalar.select v2 c1_i32 c4096_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  v11
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v15 : Index := Scalar.indexCast v1
  let c0_4 : Index := 0#32
  ![v15.toNat, 0]
def k0_off2 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c4096_i32 : BitVec 32 := 4096#32
  let c0_i32 : BitVec 32 := 0#32
  let v2 : BitVec 1 := Scalar.cmpi .eq c4096_i32 c0_i32
  let c1_i32 : BitVec 32 := 1#32
  let v3 : BitVec 32 := Scalar.select v2 c1_i32 c4096_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := v11
  let v18 : Index := Scalar.indexCast v12
  let c0_5 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  h_S256x128 : 0 < S256x128.numel
  shapeCasts_S256x128_S256x128 : S256x128.ShapeCasts S256x128
  transposes_S8192x128_p1_0_S128x8192 : S8192x128.Transposes [1, 0] S128x8192
  reduces_S256x8192_S256 : S256x8192.Reduces [1] S256
  shapeCasts_S256_S256x1 : S256.ShapeCasts S256x1
  broadcasts_S256x1_S256x8192 : S256x1.Broadcasts S256x8192
  reduces_S256x128_S256 : S256x128.Reduces [1] S256
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  reducesTo_S256x128_S_d0_1 : S256x128.ReducesTo [0, 1] S_
  dot_S256x128_S128x8192_S256x8192_1_0_0_1_n_n_wf : DotDims.WF S256x128 S128x8192 S256x8192 [1] [0] [0] [1] [] []
  hrank0 : 0 < grid0.rank
  k0_mult1_dvd : ∀ i : grid0.Coords, 256 ∣ (k0_mult1 i).toNat
  k0_mult2_dvd : ∀ i : grid0.Coords, 256 ∣ (k0_mult2 i).toNat
  k0_off1_inb : ∀ i : grid0.Coords, ∀ a, (k0_off1 i) a + S256x128.size a ≤ S8192x128.size a
  k0_off2_inb : ∀ i : grid0.Coords, ∀ a, (k0_off2 i) a + S256x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S256x128.size a
  hwx0_1 : ∀ i : grid0.Coords, EltTy.bits .f32 = 32 ∨ (Rect.block (s := S256x128) S8x128.size (cc0_transform_1 i) (hinb0_1 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_v6) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S4096, .i32⟩
  | .hbm, ⟨18, _⟩ => ⟨S4096, .i32⟩
  | .hbm, ⟨19, _⟩ => ⟨S8192, .i32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192x1, .i32⟩
  | .hbm, ⟨43, _⟩ => ⟨S8192x1x1, .i32⟩
  | .hbm, ⟨44, _⟩ => ⟨S1, .i32⟩
  | .hbm, ⟨45, _⟩ => ⟨S_, .i32⟩
  | .hbm, ⟨46, _⟩ => ⟨S8192x1x1, .i32⟩
  | .hbm, ⟨47, _⟩ => ⟨S8192x1x1, .i1⟩
  | .hbm, ⟨48, _⟩ => ⟨S1x1x1, .i32⟩
  | .hbm, ⟨49, _⟩ => ⟨S8192x1x1, .i32⟩
  | .hbm, ⟨50, _⟩ => ⟨S8192x1x1, .i1⟩
  | .hbm, ⟨51, _⟩ => ⟨S8192x1x1, .i1⟩
  | .hbm, ⟨52, _⟩ => ⟨S_, .i1⟩
  | .hbm, ⟨53, _⟩ => ⟨S8192x1, .i1⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v12 : Ref sig .tc := ⟨.hbm, 34, rfl⟩
abbrev main_v13 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_1 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x128_S8192x128_S8192x8192_1_1_0_0_n_n_wf : DotDims.WF S8192x128 S8192x128 S8192x8192 [1] [1] [0] [0] [] []
  gather_S8192x8192_S8192x1x1_S8192x1_n_1_0_0_1_2_11_wf : GatherDims.WF S8192x8192 S8192x1x1 S8192x1 [] [1] [0] [1] [0] 2 ![1, 1]

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.Spec.lean ====
/-
  The contrastive loss both programs compute, written once over the extended reals.

  Two batches of 4096 rows of 128 entries are stacked into 8192 rows; each row is divided by the larger of its
  Euclidean length and a small floor. For the resulting rows `x`, row `n` has the similarities
  `sim x n m = ∑ d, x n d * x m d` with every row `m`, and its "partner" is row `n mod 4096`. The loss of
  row `n` is minus the log-softmax, over `m`, of twice the similarities, taken at the partner; the total is the mean
  over the 8192 rows.

  The two programs spell this differently. One scales a similarity by the factor `2`, forms per row
  `(0 - partner logit) + max + log (sum of exp (logit - max))`, sums 256 rows at a time, stores each of the 32 partial
  sums 8 * 128 = 1024 times, adds up all stored entries and divides by 1024 and then by 8192 (`lossK`). The other divides
  a similarity by `1/2`, forms per row `-((partner logit - max) - log (sum of exp (logit - max)))`, adds up the 8192
  rows and divides by 8192 (`lossR`). On real entries the two agree; that is proved elsewhere. This module only
  fixes the two formulas.
-/
import Idealize.ShloMosaic.PureOps.Ideal
import Idealize.ShloMosaic.Lib.ValueIdx

open scoped BigOperators

noncomputable section

namespace Contrast

open Idealize.ShloMosaic

/-- 8192 rows of 128 extended reals. -/
abbrev Rows := Fin 8192 → Fin 128 → EReal

/-- A rank-2 array read by its two coordinates. -/
def rows2 {a b : ℕ} (A : (⟨2, ![a, b]⟩ : Shape).Idx → EReal) : Fin a → Fin b → EReal :=
  fun n d => A (ValueIdx.ix2 n d)

/-- The float words that occur, as the extended reals they denote. -/
def negInf : EReal := Ideal.ofBits .f32 0xFF800000#32
def two : EReal := Ideal.ofBits .f32 0x40000000#32
def half : EReal := Ideal.ofBits .f32 0x3F000000#32
def floor : EReal := Ideal.ofBits .f32 0x322BCC77#32
def k1024 : EReal := Ideal.ofBits .f32 0x44800000#32
def k8192 : EReal := Ideal.ofBits .f32 0x46000000#32

/-- The second batch under the first. -/
def stack (a b : Fin 4096 → Fin 128 → EReal) : Rows := fun n d =>
  if h : n.val < 4096 then a ⟨n.val, h⟩ d else b ⟨n.val - 4096, by have := n.isLt; omega⟩ d

/-- A row's length, floored. -/
def len (z : Rows) (n : Fin 8192) : EReal := max (Ideal.sqrt (∑ d : Fin 128, z n d * z n d)) floor

/-- Every row divided by its floored length. -/
def unit (z : Rows) : Rows := fun n d => Ideal.div (z n d) (len z n)

/-- The similarity of rows `n` and `m`. -/
def sim (x : Rows) (n m : Fin 8192) : EReal := ∑ d : Fin 128, x n d * x m d

/-- The row a row is scored against: its index modulo 4096. -/
def partner (n : Fin 8192) : Fin 8192 := ⟨n.val % 4096, by omega⟩

/-- The largest logit of a row, starting the fold from `-∞`. -/
def rowMax (L : Fin 8192 → Fin 8192 → EReal) (n : Fin 8192) : EReal :=
  (Finset.univ : Finset (Fin 8192)).fold max negInf (fun m => L n m)

/-- The sum over a row of the exponentials of the logits less the row's largest. -/
def sumExp (L : Fin 8192 → Fin 8192 → EReal) (n : Fin 8192) : EReal :=
  ∑ m : Fin 8192, Ideal.exp (L n m - rowMax L n)

/-- Logits as twice the similarity, and as the similarity divided by one half. -/
def logitK (x : Rows) (n m : Fin 8192) : EReal := sim x n m * two
def logitR (x : Rows) (n m : Fin 8192) : EReal := Ideal.div (sim x n m) half

/-- A row's loss in the first spelling. -/
def nllK (x : Rows) (n : Fin 8192) : EReal :=
  ((0 - sim x n (partner n) * two) + rowMax (logitK x) n) + Ideal.log (sumExp (logitK x) n)

/-- A row's loss in the second spelling. -/
def nllR (x : Rows) (n : Fin 8192) : EReal :=
  -((logitR x n (partner n) - rowMax (logitR x) n) - Ideal.log (sumExp (logitR x) n))

/-- One tile's work on generic rows: `R` the tile's 256 rows, `P` the 256 rows they are scored against, `X` all
    8192 rows. `bodyLogit` is twice the similarity of a tile row with any row, `bodyMax` and `bodyExp` the row's
    largest logit and its sum of exponentials, `tileBody` the sum of the 256 row losses in the first spelling. -/
def bodyLogit (X : Rows) (R : Fin 256 → Fin 128 → EReal) (j : Fin 256) (m : Fin 8192) : EReal :=
  (∑ d : Fin 128, R j d * X m d) * two
def bodyMax (X : Rows) (R : Fin 256 → Fin 128 → EReal) (j : Fin 256) : EReal :=
  (Finset.univ : Finset (Fin 8192)).fold max negInf (fun m => bodyLogit X R j m)
def bodyExp (X : Rows) (R : Fin 256 → Fin 128 → EReal) (j : Fin 256) : EReal :=
  ∑ m : Fin 8192, Ideal.exp (bodyLogit X R j m - bodyMax X R j)
def tileBody (X : Rows) (R P : Fin 256 → Fin 128 → EReal) : EReal :=
  ∑ j : Fin 256, (((0 - (∑ d : Fin 128, R j d * P j d) * two) + bodyMax X R j) + Ideal.log (bodyExp X R j))

/-- The partial sum over the 256 rows of tile `t`. -/
def tileK (x : Rows) (t : Fin 32) : EReal :=
  ∑ j : Fin 256, nllK x ⟨t.val * 256 + j.val, by have := t.isLt; have := j.isLt; omega⟩

/-- The first total: every tile's partial sum stored 8 * 128 times (entry `(p, q)` of a 256 by 128 array holds tile
    `p / 8`), all entries added, divided by 1024 and by 8192. -/
def lossK (x : Rows) : EReal :=
  Ideal.div (Ideal.div (∑ p : Fin 256, ∑ _q : Fin 128, tileK x ⟨p.val / 8, by have := p.isLt; omega⟩) k1024) k8192

/-- The second total: the 8192 row losses added and divided by 8192. -/
def lossR (x : Rows) : EReal := Ideal.div (∑ n : Fin 8192, nllR x n) k8192

/-- Every entry is a real number. -/
def IsReal {ι κ : Type} (x : ι → κ → EReal) : Prop := ∀ n d, ∃ r : ℝ, x n d = (r : EReal)

end Contrast

end
-- ==== Proof.KernelTile.lean ====
/-
  What one grid point of the kernel leaves in its output block, before any arithmetic is opened.

  The body makes three loads of the resident array of unit rows — the whole array, the 256 rows of the point's tile
  (rows `256 t + j`), and the 256 rows those are scored against (rows `(256 t) mod 4096 + j`) — and one store of the
  whole 8 by 128 output block. So the block it leaves is the stored value of those three loads. The two row offsets
  are computed by the body in 32-bit words; over the 32 grid points they are `256 t` and `(256 t) mod 4096`. A load
  of 256 rows at row offset `o` reads row `o + j` at its row `j`. Finally the specification's tile sum over generic
  rows, fed with the tile's rows and their partners, is the tile sum of the specification: row `256 t + j` has
  partner `(256 t + j) mod 4096 = (256 t) mod 4096 + j`, since 256 divides 4096.
-/
import proofs.«151313_j7121055776856_2_alg».proof.Proof.Gen.KernelIdeal.Frame
import proofs.«151313_j7121055776856_2_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Tile

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- The tile's 256 rows and the 256 rows they are scored against, as the body loads them from the whole array. -/
abbrev tileRows (i : grid0.Coords) (x0 : Vec F S8192x128 .bf16) : Vec F S256x128 .bf16 :=
  View.ld x0 (Rect.unit (s := S8192x128) (k0_off1 i) S256x128.size (k0_off1_inb i))
abbrev partnerRows (i : grid0.Coords) (x0 : Vec F S8192x128 .bf16) : Vec F S256x128 .bf16 :=
  View.ld x0 (Rect.unit (s := S8192x128) (k0_off2 i) S256x128.size (k0_off2_inb i))

/-- The output block after the body: its one covering store's value, of the three loads. -/
theorem out_pieces (c : Dev nD) (i : grid0.Coords) (a1 : Memref sig .tc .vmem S8192x128 .bf16) (h1 : a1.IsWhole)
    (a2 : Memref sig .tc .vmem S8x128 .f32) (h2 : a2.IsWhole) (x0 : Vec F S8192x128 .bf16) :
    out0_A_1 c i a1 h1 a2 h2 x0
      = k0_pay1 (k0_pay4 x0 (tileRows i x0)) (k0_pay5 x0 (tileRows i x0)) (k0_pay6 (tileRows i x0) (partnerRows i x0)) := by
  unfold out0_A_1
  rw [View.read_writes_eq_canon _ _ _ (cover0_A_1 c i a1 h1 a2 h2 x0)]
  unfold kernelRun0_A
  dsimp only
  sl_unfold_words
  rw [View.canon_unit_zero hz]
  simp only [View.readAt_eq_ld, h1.read_unread, View.ld_unit_zero (S := S8192x128) hz]
  rfl

/-- The two row offsets over the grid: `256 t` and `(256 t) mod 4096`; the column offset is zero. -/
theorem off1_eq : ∀ t : Fin cfg0.N, k0_off1 (grid0.coords t) = ![256 * t.val, 0] :=
  (by decide +kernel : ∀ t : Fin grid0.N, k0_off1 (grid0.coords t) = ![256 * t.val, 0])
theorem off2_eq : ∀ t : Fin cfg0.N, k0_off2 (grid0.coords t) = ![(256 * t.val) % 4096, 0] :=
  (by decide +kernel : ∀ t : Fin grid0.N, k0_off2 (grid0.coords t) = ![(256 * t.val) % 4096, 0])

/-- A load of 256 rows at row offset `off 0` (column offset zero) reads row `off 0 + j` at its row `j`. -/
theorem ld_rows (x0 : Vec F S8192x128 .bf16) (off : Fin 2 → Nat) (inb : ∀ a, off a + S256x128.size a ≤ S8192x128.size a)
    (h1 : off 1 = 0) (j : Fin 256) (d : Fin 128) (r : Fin 8192) (hr : r.val = off 0 + j.val) :
    View.ld x0 (Rect.unit (s := S8192x128) off S256x128.size inb) (ix2 j d) = x0 (ix2 r d) := by
  show x0 _ = x0 _
  refine congrArg x0 ?_
  funext a
  apply Fin.ext
  match a with
  | ⟨0, _⟩ => show off 0 + 1 * j.val = r.val; omega
  | ⟨1, _⟩ => show off 1 + 1 * d.val = d.val; omega

/-- The generic tile sum on a tile's rows and their partners is the specification's tile sum. -/
theorem tileBody_rows (X : Contrast.Rows) (t : Fin 32) (R P : Fin 256 → Fin 128 → EReal)
    (hR : ∀ j d, R j d = X ⟨t.val * 256 + j.val, by have := t.isLt; have := j.isLt; omega⟩ d)
    (hP : ∀ j d, P j d = X ⟨(256 * t.val) % 4096 + j.val, by have := t.isLt; have := j.isLt; omega⟩ d) :
    Contrast.tileBody X R P = Contrast.tileK X t := by
  unfold Contrast.tileBody Contrast.tileK
  refine Finset.sum_congr rfl fun j _ => ?_
  have hp : Contrast.partner ⟨t.val * 256 + j.val, by have := t.isLt; have := j.isLt; omega⟩
      = ⟨(256 * t.val) % 4096 + j.val, by have := t.isLt; have := j.isLt; omega⟩ := by
    apply Fin.ext; show (t.val * 256 + j.val) % 4096 = (256 * t.val) % 4096 + j.val
    have := t.isLt; have := j.isLt; omega
  simp only [Contrast.nllK, Contrast.sumExp, Contrast.rowMax, Contrast.logitK, Contrast.sim, Contrast.bodyExp,
    Contrast.bodyMax, Contrast.bodyLogit, hp, hR, hP]

end Cert.KernelIdeal.Tile

end
-- ==== Proof.RefLossUnit.lean ====
import proofs.«151313_j7121055776856_2_alg».proof.Proof.RefRead
import proofs.«151313_j7121055776856_2_alg».proof.Proof.Spec

/-!
  The first stages of the reference program, read at an index: the two argument arrays stacked, and every row of the
  stack divided by the larger of its Euclidean length and the floor. The result is the array of unit rows of the
  specification.
-/

open scoped BigOperators

noncomputable section

namespace Cert.ReferenceIdeal.RefLoss

open Cert.ReferenceIdeal Cert.ReferenceIdeal.Gen Idealize.ShloMosaic Idealize.ShloMosaic.ValueIdx

/-- The stacked array: rows below 4096 are the first argument's, the others the second's at the row less 4096. -/
theorem stack_eq (x0 x1 : (⟨S4096x128, .f32⟩ : BufTy).Contents (Elt Ideal)) (n : Fin 8192) (d : Fin 128) :
    Read.val_main_v0 (F := Ideal) x0 x1 (ix2 n d) = Contrast.stack (Contrast.rows2 x0) (Contrast.rows2 x1) n d := by
  unfold Read.val_main_v0 Contrast.stack
  by_cases h : n.val < 4096
  · rw [dif_pos h]
    exact concatenate_pair_apply_left (0 : Fin 2) x0 x1 _ (ix2 n d) rfl (ix2 ⟨n.val, h⟩ d)
      (fun b => by match b with | ⟨0, _⟩ => rfl | ⟨1, _⟩ => rfl)
  · rw [dif_neg h]
    exact concatenate_pair_apply_right (0 : Fin 2) x0 x1 _ (ix2 n d) rfl rfl
      (ix2 ⟨n.val - 4096, by have := n.isLt; omega⟩ d)
      (fun b hb => by match b, hb with | ⟨0, _⟩, hb => exact absurd rfl hb | ⟨1, _⟩, _ => rfl)
      (by show (n.val - 4096) + 4096 = n.val; omega)

/-- The sum of the squares of a row of the stack. -/
theorem sumsq_eq (x0 x1 : (⟨S4096x128, .f32⟩ : BufTy).Contents (Elt Ideal)) (n : Fin 8192) :
    Read.val_main_call0_v1 (F := Ideal) x0 x1 (ix1 n)
      = ∑ d : Fin 128, Contrast.stack (Contrast.rows2 x0) (Contrast.rows2 x1) n d
          * Contrast.stack (Contrast.rows2 x0) (Contrast.rows2 x1) n d := by
  have e : ∀ k : Fin 128, Read.idx_main_call0_v1 (ix1 n) k = ix2 n k := fun k =>
    funext fun a => Fin.ext (by match a with | ⟨0, _⟩ => rfl | ⟨1, _⟩ => rfl)
  rw [Read.val_main_call0_v1_apply, Read.val_main_call0_cst_apply]
  simp only [e, Read.val_main_call0_v0_apply, stack_eq, Ideal.ofBits_def, Ideal.ofBits_zero_f32, Ideal.mulf_def, zero_add]

/-- A row's floored length. -/
theorem len_eq (x0 x1 : (⟨S4096x128, .f32⟩ : BufTy).Contents (Elt Ideal)) (n : Fin 8192) :
    Read.val_main_v3 (F := Ideal) x0 x1 (ix2 n 0)
      = Contrast.len (Contrast.stack (Contrast.rows2 x0) (Contrast.rows2 x1)) n := by
  have e : Read.idx_main_call0_v2 (ix2 n (0 : Fin 1)) = ix1 n :=
    funext fun a => Fin.ext (by match a with | ⟨0, _⟩ => rfl)
  rw [Read.val_main_v3_apply, Read.val_main_v1_apply, Read.val_main_call0_v2_apply, e, sumsq_eq,
    Read.val_main_v2_apply, Read.val_main_cst_apply]
  simp only [Ideal.maximumf_def, Ideal.hostUnary_sqrt_def, Ideal.ofBits_def]
  rfl

/-- The unit rows. -/
theorem unit_eq (x0 x1 : (⟨S4096x128, .f32⟩ : BufTy).Contents (Elt Ideal)) (n : Fin 8192) (d : Fin 128) :
    Read.val_main_v5 (F := Ideal) x0 x1 (ValueIdx.ix2 n d)
      = Contrast.unit (Contrast.stack (Contrast.rows2 x0) (Contrast.rows2 x1)) n d := by
  have e : Read.idx_main_v4 (ix2 n d) = ix2 n (0 : Fin 1) :=
    funext fun a => Fin.ext (by match a with | ⟨0, _⟩ => rfl | ⟨1, _⟩ => rfl)
  rw [Read.val_main_v5_apply, Read.val_main_v4_apply, e, len_eq, stack_eq]
  simp only [Ideal.hostDivf_def]
  rfl

end Cert.ReferenceIdeal.RefLoss

end
-- ==== Proof.KernelPrefix.lean ====
/-
  The array of unit rows as the kernel finds it.

  Before the kernel is launched the host stacks the two batches, computes every row's floored length and divides: the
  same operations, in the same order, as the reference's first stages, followed by a change of float format, which at
  the exact instance is the identity. So the array the kernel's first window stages is the array of unit rows of the
  specification. That window's block is the whole 8192 by 128 array at every grid point (block index (0, 0), block
  size the array's), so what the body finds in its staging buffer at any point is that array.
-/
import proofs.«151313_j7121055776856_2_alg».proof.Proof.Gen.KernelIdeal.Frame
import proofs.«151313_j7121055776856_2_alg».proof.Proof.RefRead
import proofs.«151313_j7121055776856_2_alg».proof.Proof.RefLossUnit
import proofs.«151313_j7121055776856_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.StableHlo

namespace Cert.KernelIdeal.Prefix

open Cert.KernelIdeal Cert.KernelIdeal.Gen Idealize.ShloMosaic.ValueIdx

variable (m : (ℓ : Loc nD τ sig) → Buf (Elt Ideal) ℓ)

/-- The unit rows of the two argument arrays as core `c` holds them at launch. -/
abbrev unitRows (c : Dev nD) : Contrast.Rows :=
  Contrast.unit (Contrast.stack (Contrast.rows2 (m ((c : Thread nD τ).loc main_arg0)))
    (Contrast.rows2 (m ((c : Thread nD τ).loc main_arg1))))

/-- The staged array is the host's stages of the arguments: the reference's term for its unit rows. -/
theorem V_rows (c : Dev nD) : (V m c main_v6 : S8192x128.Idx → EReal) =
    Cert.ReferenceIdeal.Read.val_main_v5 (F := Ideal) (m ((c : Thread nD τ).loc main_arg0)) (m ((c : Thread nD τ).loc main_arg1)) := by
  dsimp only [V, V0]
  simp only [hostOps0, hostOps0_1, hostOps0_2, List.flatten_cons, List.flatten_nil, List.append_nil, List.cons_append, List.nil_append]
  after_results
  rfl

/-- Read by coordinates it is the unit rows. -/
theorem rows_V (c : Dev nD) : Contrast.rows2 (V m c main_v6 : S8192x128.Idx → EReal) = unitRows m c := by
  funext n d
  show (V m c main_v6 : S8192x128.Idx → EReal) (ix2 n d) = _
  rw [V_rows]
  exact Cert.ReferenceIdeal.RefLoss.unit_eq _ _ n d

/-- Window 0's block index is (0, 0) at every grid point. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- So the block the body finds at any point is the whole staged array. -/
theorem iblk_whole (c : Dev nD) (t : Fin cfg0.N) : (iblk m c 0 t : Vec Ideal S8192x128 .bf16) = V m c main_v6 := by
  obtain ⟨e0, e1⟩ := idx0 t
  funext j
  unfold iblk
  rw [View.read_apply]
  show V m c main_v6 _ = V m c main_v6 j
  refine congrArg (V m c main_v6) ?_
  funext a
  apply Fin.ext
  match a with
  | ⟨0, _⟩ => show win0_0.index t (0 : Fin 2) * 8192 + 1 * (j 0).val = (j 0).val; rw [e0]; omega
  | ⟨1, _⟩ => show win0_0.index t (1 : Fin 2) * 128 + 1 * (j 1).val = (j 1).val; rw [e1]; omega

end Cert.KernelIdeal.Prefix

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«151313_j7121055776856_2_alg».proof.Proof.LibLayout
import proofs.«151313_j7121055776856_2_alg».proof.Proof.LibRowCol
import proofs.«151313_j7121055776856_2_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.BodyValue.lean ====
/-
  The one value a tile's work stores, as a function of the three arrays it reads.

  The tile reads all 8192 unit rows `X`, its own 256 rows `R` and the 256 rows `P` they are scored against.  It forms
  the logits `(∑ d, R (j, d) * X (m, d)) * 2` (a matrix product of `R` with the transpose of `X`, then a scaling), their
  row maxima and the row sums of the exponentials of the logits less the maxima, and `0 - (∑ d, R (j, d) * P (j, d)) * 2`;
  it adds, row by row, the last, the maximum and the logarithm of the sum of exponentials, adds up the 256 rows, and
  writes the total to every entry of an 8 by 128 array.  Each of the six pure terms is read at an index given by its
  coordinates; composed, every stored entry is the tile sum of the specification.
-/
import Idealize.ShloMosaic.Lib.Pipeline.Value
import Idealize.ShloMosaic.Lib.ValueIdx
import Idealize.ShloMosaic.Lib.ValueLayout
import Idealize.ShloMosaic.PureOps.Ideal.Laws
import proofs.«151313_j7121055776856_2_alg».proof.Proof.Gen.KernelIdeal.Skeleton
import proofs.«151313_j7121055776856_2_alg».proof.Proof.Spec
import proofs.«151313_j7121055776856_2_alg».proof.Proof.LibRowCol
import proofs.«151313_j7121055776856_2_alg».proof.Proof.LibRowStat
import proofs.«151313_j7121055776856_2_alg».proof.Proof.LibMatProd
import proofs.«151313_j7121055776856_2_alg».proof.Proof.LibDot2

set_option synthInstance.maxSize 4096

noncomputable section

open scoped BigOperators

namespace Cert.KernelIdeal.Body

open Idealize.ShloMosaic Idealize.ShloMosaic.ValueIdx
open Cert.KernelIdeal Cert.KernelIdeal.Facts₀ Cert.KernelIdeal.Facts

variable [Cert.KernelIdeal.Facts]

/-- The tile's rows pass through a cast to their own shape unchanged. -/
theorem pay2_eq (R : FVec Ideal S256x128 .bf16) : Gen.k0_pay2 (F := Ideal) R = R :=
  shapeCast_self R _

/-- The logits: entry `(j, m)` is twice the inner product of tile row `j` with row `m`. -/
theorem pay3_apply (X : FVec Ideal S8192x128 .bf16) (R : FVec Ideal S256x128 .bf16) (j : Fin 256) (m : Fin 8192) :
    Gen.k0_pay3 (F := Ideal) X R (ix2 j m) = Contrast.bodyLogit (Contrast.rows2 X) (Contrast.rows2 R) j m := by
  have h0 : 0 < dot_S256x128_S128x8192_S256x8192_1_0_0_1_n_n.contr.rank := by
    rw [Dot2.rank_contr dot_S256x128_S128x8192_S256x8192_1_0_0_1_n_n rfl]; exact Nat.one_pos
  have hmm := MatProd.matmul_zero_entry (φ₁ := .bf16) (φ₂ := .bf16) dot_S256x128_S128x8192_S256x8192_1_0_0_1_n_n none
    (Dot2.rank_contr _ rfl) (Dot2.size_contr _ rfl h0)
    (Dot2.lhs0 _ rfl rfl) (Dot2.lhs1 _ rfl h0) (Dot2.rhs0 _ rfl h0) (Dot2.rhs1 _ rfl rfl rfl rfl)
    (Gen.k0_pay2 (F := Ideal) R)
    (transpose S128x8192 [1, 0] (shapeCast S8192x128 X shapeCasts_S8192x128_S8192x128) transposes_S8192x128_p1_0_S128x8192) j m
  refine (congrArg (· * Contrast.two) hmm).trans ?_
  unfold Contrast.bodyLogit MatProd.entry
  refine congrArg (· * Contrast.two) (Finset.sum_congr rfl fun d _ => ?_)
  rw [pay2_eq, transpose_ix2_apply, shapeCast_self]
  rfl

/-- The row maxima: entry `(j, 0)` is the fold of `max` from −∞ over row `j` of the logits. -/
theorem pay4_apply (X : FVec Ideal S8192x128 .bf16) (R : FVec Ideal S256x128 .bf16) (j : Fin 256) (u : Fin 1) :
    Gen.k0_pay4 (F := Ideal) X R (ix2 j u) = Contrast.bodyMax (Contrast.rows2 X) (Contrast.rows2 R) j := by
  refine (RowStat.max_col (Gen.k0_pay3 (F := Ideal) X R) reduces_S256x8192_S256 _ _ shapeCasts_S256_S256x1 j u).trans ?_
  unfold Contrast.bodyMax
  exact congrArg (fun f => (Finset.univ : Finset (Fin 8192)).fold max Contrast.negInf f)
    (funext fun m => pay3_apply X R j m)

/-- The row sums of exponentials: entry `(j, 0)` is the sum over row `j` of the exponentials of the logits less the
    row's maximum. -/
theorem pay5_apply (X : FVec Ideal S8192x128 .bf16) (R : FVec Ideal S256x128 .bf16) (j : Fin 256) (u : Fin 1) :
    Gen.k0_pay5 (F := Ideal) X R (ix2 j u) = Contrast.bodyExp (Contrast.rows2 X) (Contrast.rows2 R) j := by
  refine (RowStat.sum_col _ reduces_S256x8192_S256 _ _ shapeCasts_S256_S256x1 j u).trans ?_
  unfold Contrast.bodyExp
  refine Finset.sum_congr rfl fun m _ => ?_
  show Ideal.exp (Gen.k0_pay3 (F := Ideal) X R (ix2 j m)
    - broadcastTo S256x8192 (Gen.k0_pay4 (F := Ideal) X R) broadcasts_S256x1_S256x8192 (ix2 j m)) = _
  rw [RowCol.broadcastTo_a1_ab_apply, pay3_apply, pay4_apply]

/-- The partner term: entry `(j, 0)` is zero less twice the inner product of tile row `j` with its partner row. -/
theorem pay6_apply (R P : FVec Ideal S256x128 .bf16) (j : Fin 256) (u : Fin 1) :
    Gen.k0_pay6 (F := Ideal) R P (ix2 j u)
      = 0 - (∑ d : Fin 128, Contrast.rows2 R j d * Contrast.rows2 P j d) * Contrast.two := by
  refine (congrArg (fun t => Ideal.ofBits .f32 0x00000000#32 - t * Contrast.two)
    (RowStat.sum_col _ reduces_S256x128_S256 _ _ shapeCasts_S256_S256x1 j u)).trans ?_
  rw [Ideal.ofBits_zero_f32]
  refine congrArg (fun t => 0 - t * Contrast.two) (Finset.sum_congr rfl fun d _ => ?_)
  show Gen.k0_pay2 (F := Ideal) R (ix2 j d) * shapeCast S256x128 P shapeCasts_S256x128_S256x128 (ix2 j d) = _
  rw [pay2_eq, shapeCast_self]
  rfl

/-- The indices of a `[1, n, 1]` array are the coordinates along its middle axis. -/
def midEquiv (n : ℕ) : (⟨3, ![1, n, 1]⟩ : Shape).Idx ≃ Fin n where
  toFun i := i 1
  invFun j := ix3 (0 : Fin 1) j (0 : Fin 1)
  left_inv i := by
    funext a
    match a with
    | ⟨0, _⟩ => exact Fin.ext (by have h : (i 0).val < 1 := (i 0).isLt; show (0 : ℕ) = (i 0).val; omega)
    | ⟨1, _⟩ => rfl
    | ⟨2, _⟩ => exact Fin.ext (by have h : (i 2).val < 1 := (i 2).isLt; show (0 : ℕ) = (i 2).val; omega)
  right_inv _ := rfl

/-- A sum over all of a `[1, n, 1]` array is the sum along its middle axis. -/
theorem sum_mid {n : ℕ} (f : (⟨3, ![1, n, 1]⟩ : Shape).Idx → EReal) :
    ∑ i, f i = ∑ j : Fin n, f (ix3 (0 : Fin 1) j (0 : Fin 1)) :=
  (Equiv.sum_comp (midEquiv n).symm f).symm

/-- The stored array: every entry is the sum over the 256 rows of the partner term plus the row's maximum plus the
    logarithm of the row's sum of exponentials. -/
theorem pay1_eq (v26 v31 v40 : FVec Ideal S256x1 .f32) :
    Gen.k0_pay1 (F := Ideal) v26 v31 v40
      = fun _ => ∑ j : Fin 256, ((v40 (ix2 j (0 : Fin 1)) + v26 (ix2 j (0 : Fin 1))) + Ideal.log (v31 (ix2 j (0 : Fin 1)))) := by
  funext i
  refine (Ideal.multiReduction_add_total (φ := .f32) _ 0x00000000#32 reduces_S1x256x1_S1
    (fun b => by match b with | ⟨0, _⟩ => rfl) (.inl rfl) rfl _).trans ?_
  refine (sum_mid _).trans (Finset.sum_congr rfl fun j _ => ?_)
  rw [shapeCast_ab_1ab_apply]
  rfl

/-- The value a tile's work stores, from the three arrays it reads: at every entry, the tile sum of the specification. -/
theorem pay_eq (X : Vec Ideal S8192x128 .bf16) (R P : Vec Ideal S256x128 .bf16) :
    Gen.k0_pay1 (F := Ideal) (Gen.k0_pay4 (F := Ideal) X R) (Gen.k0_pay5 (F := Ideal) X R) (Gen.k0_pay6 (F := Ideal) R P)
      = fun _ => Contrast.tileBody (Contrast.rows2 X) (Contrast.rows2 R) (Contrast.rows2 P) := by
  refine (pay1_eq _ _ _).trans (funext fun _ => ?_)
  unfold Contrast.tileBody
  refine Finset.sum_congr rfl fun j _ => ?_
  rw [pay4_apply, pay5_apply, pay6_apply]

end Cert.KernelIdeal.Body

end
-- ==== Proof.KernelOut.lean ====
/-
  What grid point `t` leaves in its output block: the tile sum of tile `t`, in all 8 by 128 entries.

  The body's stored value is the specification's tile sum over generic rows, of the whole array it finds, the tile's 256
  rows and their 256 partner rows (the body's arithmetic, read at an index elsewhere). The array it finds is the array of
  unit rows; the tile's rows are rows `256 t + j` and the partner rows `(256 t) mod 4096 + j` of it. So the stored value
  is the tile sum of the specification at the unit rows.
-/
import proofs.«151313_j7121055776856_2_alg».proof.Proof.KernelTile
import proofs.«151313_j7121055776856_2_alg».proof.Proof.KernelPrefix
import proofs.«151313_j7121055776856_2_alg».proof.Proof.BodyValue

noncomputable section

open Idealize.ShloMosaic Idealize.ShloMosaic.TcCoe Idealize.SL.Sem
open scoped BigOperators

namespace Cert.KernelIdeal.Out

open Cert.KernelIdeal Cert.KernelIdeal.Gen Idealize.ShloMosaic.ValueIdx

variable (m : (ℓ : Loc nD τ sig) → Buf (Elt Ideal) ℓ)

/-- A grid point as a tile number. -/
def tix (t : Fin cfg0.N) : Fin 32 := ⟨t.val, by have h := t.isLt; have : cfg0.N = 32 := N_0; omega⟩

/-- The stored value on ANY array `X` found in the staging buffer: the tile sum of tile `t` of `X`'s rows. -/
theorem tile_of_block (t : Fin cfg0.N) (X : Vec Ideal S8192x128 .bf16) :
    k0_pay1 (F := Ideal) (k0_pay4 (F := Ideal) X (Tile.tileRows (grid0.coords t) X))
        (k0_pay5 (F := Ideal) X (Tile.tileRows (grid0.coords t) X))
        (k0_pay6 (F := Ideal) (Tile.tileRows (grid0.coords t) X) (Tile.partnerRows (grid0.coords t) X))
      = fun _ => Contrast.tileK (Contrast.rows2 X) (tix t) := by
  rw [Body.pay_eq]
  funext _
  have o1 := Tile.off1_eq t
  have o2 := Tile.off2_eq t
  refine Tile.tileBody_rows (Contrast.rows2 X) (tix t) _ _ (fun j d => ?_) (fun j d => ?_)
  · exact Tile.ld_rows X (k0_off1 (grid0.coords t)) (k0_off1_inb (grid0.coords t)) (by rw [o1]; rfl) j d _
      (by rw [o1]; show t.val * 256 + j.val = 256 * t.val + j.val; omega)
  · exact Tile.ld_rows X (k0_off2 (grid0.coords t)) (k0_off2_inb (grid0.coords t)) (by rw [o2]; rfl) j d _
      (by rw [o2]; rfl)

/-- What the output's staging buffer holds after the body at point `t`. -/
theorem outsAt_eq (c : Dev nD) (t : Fin cfg0.N) :
    outsAt0 m c t = fun _ => Contrast.tileK (Prefix.unitRows m c) (tix t) := by
  unfold outsAt0
  refine (Tile.out_pieces c (grid0.coords t) (ms0_0 t) (hs0_0 t) (ms0_1 t) (hs0_1 t) (iblk m c 0 t)).trans ?_
  refine (tile_of_block t (iblk m c 0 t)).trans ?_
  have e : (iblk m c 0 t : Vec Ideal S8192x128 .bf16) = V m c main_v6 := Prefix.iblk_whole m c t
  rw [e, Prefix.rows_V]

end Cert.KernelIdeal.Out

end
-- ==== Proof.KernelFinal.lean ====
/-
  From the output blocks to the program's result.

  Grid point `t` writes its block back to rows `8 t … 8 t + 7` of the 256 by 128 output array, every entry holding tile
  `t`'s sum; the 32 blocks tile the array, so after the run entry `(p, q)` holds tile `p / 8`'s sum. The host then adds
  up all 256 * 128 entries from zero and divides by 1024 and by 8192: the first spelling of the loss, at the unit rows.
-/
import proofs.«151313_j7121055776856_2_alg».proof.Proof.KernelOut
import Idealize.ShloMosaic.PureOps.Ideal.Laws
import Idealize.ShloMosaic.Lib.StableHlo.Run

noncomputable section

open Idealize.ShloMosaic Idealize.ShloMosaic.TcCoe Idealize.SL.Sem Idealize.ShloMosaic.StableHlo
open Idealize.ShloMosaic.Pipeline (Dat)
open scoped BigOperators

namespace Cert.KernelIdeal.Final

open Cert.KernelIdeal Cert.KernelIdeal.Gen Idealize.ShloMosaic.ValueIdx

variable (m : (ℓ : Loc nD τ sig) → Buf (Elt Ideal) ℓ) (ρ : Dev nD → PrngReg)

/-- The output array after the run: entry `(p, q)` holds the sum of tile `p / 8`. -/
def G (c : Dev nD) : S256x128.Idx → EReal := fun i =>
  Contrast.tileK (Prefix.unitRows m c) ⟨(i 0).val / 8, by have h : (i 0).val < 256 := (i 0).isLt; omega⟩

/-- The output window's block index at point `t` is `(t, 0)`. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- What point `t` writes back is block `t` of `G`. -/
theorem flushed_eq (c : Dev nD) (t : Fin cfg0.N) :
    (dats m 0 c).flushed 1 t = ((cfg0.win 1).blk t).view.read (Elt Ideal) (G m c) := by
  show (cfg0.win 1).cut (grid0.coords t) ((dats m 0 c).after 1 t) = _
  rw [after0_1, Out.outsAt_eq]
  obtain ⟨e0, e1⟩ := idx1 t
  funext j
  show Contrast.tileK (Prefix.unitRows m c) (Out.tix t) = G m c (((cfg0.win 1).blk t).view.emb j)
  unfold G
  refine congrArg (Contrast.tileK (Prefix.unitRows m c)) (Fin.ext ?_)
  show t.val = (win0_1.index t (0 : Fin 2) * 8 + 1 * (j 0).val) / 8
  have hj : (j 0).val < 8 := (j 0).isLt
  rw [e0]; omega

/-- An index of the array is in point `t`'s block iff each coordinate is in the block's range on its axis. -/
theorem mem_blk (t : Fin cfg0.N) (i : S256x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v7).slice (win0_1.rect t)).set ↔ _
  rw [View.set_slice_whole, Rect.mem_set_unit]
  exact Iff.rfl

/-- Row `p` lies in the block of point `p / 8`: the 32 blocks tile the array. -/
theorem cover (i : S256x128.Idx) : ∃ t : Fin cfg0.N, (cfg0.win 1).flush t = true ∧ i ∈ ((cfg0.win 1).blk t).view.set := by
  have hi0 : (i 0).val < 256 := (i 0).isLt
  have hi1 : (i 1).val < 128 := (i 1).isLt
  have hN : cfg0.N = 32 := N_0
  obtain ⟨t, ht⟩ : ∃ t : Fin cfg0.N, t.val = (i 0).val / 8 := ⟨⟨(i 0).val / 8, by omega⟩, rfl⟩
  obtain ⟨e0, e1⟩ := idx1 t
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; rw [e0]; omega
  | ⟨1, _⟩ => show win0_1.index t (1 : Fin 2) * 128 ≤ (i 1).val ∧ (i 1).val < win0_1.index t (1 : Fin 2) * 128 + 128; rw [e1]; omega

/-- So the output array ends holding `G`. -/
theorem final (c : Dev nD) : (dats m 0 c).arrAt 1 cfg0.N = G m c :=
  (dats m 0 c).arrAt_eq_of_cover 1 (G m c) (fun t _ => flushed_eq m c t) (cover)

/-- The host's lines after the kernel: all entries added from zero, divided by 1024 and by 8192. -/
theorem tail_eq (c : Dev nD) :
    Pipeline.afterTail₀ cfgs (dats m) 0 (V0 m) [hostOps1] c main_v10 = fun _ => Contrast.lossK (Prefix.unitRows m c) := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v7) = G m c from
      (Pipeline.withArrays_arr spec0 launch0.win.arr_inj c _ _ 1).trans (final m c)]
  funext i
  have hs : Host.reduceAdd (F := Ideal) (G m c) (constant (F := Ideal) S_ .f32 0#32) reducesTo_S256x128_S_d0_1 h_S_ i
      = ∑ p : Fin 256, ∑ q : Fin 128, G m c (ix2 p q) := by
    simp only [Host.reduceAdd, Ideal.hostReduceAdd_def]
    rw [Ideal.hostReduceAdd_total reducesTo_S256x128_S_d0_1 (fun b => b.elim0) (G m c) _ i, sum_idx2]
    show Ideal.ofBits .f32 0x00000000#32 + _ = _
    rw [Ideal.ofBits_zero_f32, zero_add]
  show Ideal.div (Ideal.div (Host.reduceAdd (F := Ideal) (G m c) (constant (F := Ideal) S_ .f32 0#32) reducesTo_S256x128_S_d0_1 h_S_ i)
      (Ideal.ofBits .f32 0x44800000#32)) (Ideal.ofBits .f32 0x46000000#32) = _
  rw [hs]
  rfl

/-- The kernel program's run, read: the result is the first spelling of the loss at the unit rows; the arguments are
    unchanged. -/
theorem run : θ_run defs (onTc (τ := τ) (main (F := Ideal))) ⟨m, fun _ => 0, ρ⟩ fun r => ∀ c : Dev nD,
      r.2.mem ((c.tc : Thread nD τ).loc main_v10) = (fun _ => Contrast.lossK (Prefix.unitRows m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Final

end
-- ==== Proof.RefRun.lean ====
/-
  The reference program's run, read back as its last stage.

  The reference is a straight line of 62 host operations. Taken all at once, "the result buffer after the line holds the
  last stage of the two arguments" is one very deep term equation; taken in seven consecutive pieces it is seven shallow
  ones. The pieces: the unit rows (operations 0–10), the logits and the labels (11–17), the shifted logits (18–25) and the log-softmax from
  them (26–32), the label indices (33–41) and their bounds mask (42–51), the gather, the negation, the sum over rows and the division (52–61).
  For each piece: GIVEN that the buffers it reads hold their stages of the arguments, the buffers it writes hold theirs
  (`stageA … stageE`), and a buffer it does not write keeps its contents (the `keep…` lemmas). Running the pieces one
  after the other (`after_append`) the result buffer holds the last stage (`after_v18`); every weakly fair execution of the
  program ends there with the arguments unchanged (`run`).
-/
import proofs.«151313_j7121055776856_2_alg».proof.Proof.RefOps
import proofs.«151313_j7121055776856_2_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried to a buffer's own type and back are the contents. -/
theorem ofBuf_toBuf {T : BufTy} (x : TRef sig T) (v : T.Contents (Elt F)) : x.ofBuf (x.toBuf v) = v := by
  obtain ⟨r, h, h1, h2⟩ := x
  subst h
  rfl

/-! ## The seven pieces of the line -/

abbrev opsA : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)) ]

abbrev opsB : List (HloOp τ sig (Elt F)) :=
  [ binary main_v5 main_v5 main_v6 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    nullary main_cst_0 (constant S_ .f32 0x3F000000#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    nullary main_v9 (iotaInDim S4096 32 0),
    nullary main_v10 (iotaInDim S4096 32 0),
    binary main_v9 main_v10 main_v11 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]

abbrev opsC1 : List (HloOp τ sig (Elt F)) :=
  [ TRef.nullary (TRef.of (T := ⟨S_, .f32⟩) main_call1_cst) (constant S_ .f32 0xFF800000#32),
    TRef.binary (TRef.of (T := ⟨S8192x8192, .f32⟩) main_v8) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v8) (TRef.of (T := ⟨S8192x8192, .f32⟩) main_call1_v4) (TRef.of (T := ⟨S8192x8192, .f32⟩) main_call1_v5) subf ]

abbrev opsC2 : List (HloOp τ sig (Elt F)) :=
  [ TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v12) subf ]

abbrev opsD1 : List (HloOp τ sig (Elt F)) :=
  [ unary main_v11 main_v13 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8192x1, .i32⟩) main_call2_v0) (broadcastInDim S8192x1 ![] bcast_S_S8192x1),
    TRef.binary (TRef.of (T := ⟨S8192x1, .i32⟩) main_v13) (TRef.of (T := ⟨S8192x1, .i32⟩) main_call2_v0) (TRef.of (T := ⟨S8192x1, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S8192x1, .i32⟩) main_call2_v2) (broadcastInDim S8192x1 ![] bcast_S_S8192x1),
    TRef.binary (TRef.of (T := ⟨S8192x1, .i32⟩) main_v13) (TRef.of (T := ⟨S8192x1, .i32⟩) main_call2_v2) (TRef.of (T := ⟨S8192x1, .i32⟩) main_call2_v3) addi,
    TRef.ternary (TRef.of (T := ⟨S8192x1, .i1⟩) main_call2_v1) (TRef.of (T := ⟨S8192x1, .i32⟩) main_call2_v3) (TRef.of (T := ⟨S8192x1, .i32⟩) main_v13) (TRef.of (T := ⟨S8192x1, .i32⟩) main_call2_v4) select,
    TRef.reshape (TRef.of (T := ⟨S8192x1, .i32⟩) main_call2_v4) (TRef.of (T := ⟨S8192x1x1, .i32⟩) main_call2_v5) rfl shapeCasts_S8192x1_S8192x1x1 ]

abbrev opsD2 : List (HloOp τ sig (Elt F)) :=
  [ TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S8192x1x1, .i32⟩) main_call2_v6) (broadcastInDim S8192x1x1 ![] bcast_S_S8192x1x1),
    TRef.binary (TRef.of (T := ⟨S8192x1x1, .i32⟩) main_call2_v5) (TRef.of (T := ⟨S8192x1x1, .i32⟩) main_call2_v6) (TRef.of (T := ⟨S8192x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x1x1, .i32⟩) main_call2_v9) (broadcastInDim S8192x1x1 ![0, 1, 2] bcast_S1x1x1_S8192x1x1_0_1_2),
    TRef.binary (TRef.of (T := ⟨S8192x1x1, .i32⟩) main_call2_v5) (TRef.of (T := ⟨S8192x1x1, .i32⟩) main_call2_v9) (TRef.of (T := ⟨S8192x1x1, .i1⟩) main_call2_v10) (cmpi .sle),
    TRef.binary (TRef.of (T := ⟨S8192x1x1, .i1⟩) main_call2_v7) (TRef.of (T := ⟨S8192x1x1, .i1⟩) main_call2_v10) (TRef.of (T := ⟨S8192x1x1, .i1⟩) main_call2_v11) andi,
    TRef.nullary (TRef.of (T := ⟨S_, .i1⟩) main_call2_c_3) (constantI S_ 1 1#1),
    TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_) ]

abbrev opsE : List (HloOp τ sig (Elt F)) :=
  [ TRef.binary (TRef.of (T := ⟨S8192x8192, .f32⟩) main_v12) (TRef.of (T := ⟨S8192x1x1, .i32⟩) main_call2_v5) (TRef.of (T := ⟨S8192x1, .f32⟩) main_call2_v13) (fun x i => Host.gather gather_S8192x8192_S8192x1x1_S8192x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x1, .f32⟩) main_call2_v14) (broadcastInDim S8192x1 ![] bcast_S_S8192x1),
    TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v14) select,
    reshape main_v14 main_v15 rfl shapeCasts_S8192x1_S8192,
    unary main_v15 main_v16 (Host.negf : (⟨S8192, .f32⟩ : BufTy).Contents (Elt F) → (⟨S8192, .f32⟩ : BufTy).Contents (Elt F)),
    nullary main_cst_1 (constant S_ .f32 0x00000000#32),
    binary main_v16 main_cst_1 main_v17 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_2 (constant S_ .f32 0x46000000#32),
    binary main_v17 main_cst_2 main_v18 (Host.divf : (⟨S_, .f32⟩ : BufTy).Contents (Elt F) → (⟨S_, .f32⟩ : BufTy).Contents (Elt F) → (⟨S_, .f32⟩ : BufTy).Contents (Elt F)) ]

set_option maxRecDepth 8192 in
theorem ops_split : (ops : List (HloOp τ sig (Elt F)))
    = opsA ++ (opsB ++ (opsC1 ++ (opsC2 ++ (opsD1 ++ (opsD2 ++ opsE))))) := rfl

/-! ## Each piece: its results are the stages, given that what it reads are -/

section Stages

variable (W : Valuation τ sig (Elt F)) (x0 x1 : (⟨S4096x128, .f32⟩ : BufTy).Contents (Elt F))

set_option maxRecDepth 32768 in
set_option maxHeartbeats 1600000 in
theorem stageA :
    after opsA W (Proc.devRef .tc main_v5) = Read.val_main_v5 (F := F) (W (Proc.devRef .tc main_arg0)) (W (Proc.devRef .tc main_arg1)) := by
  unfold opsA; after_results_simp; rfl

set_option maxRecDepth 32768 in
set_option maxHeartbeats 1600000 in
theorem stageB8 (h5 : W (Proc.devRef .tc main_v5) = Read.val_main_v5 (F := F) x0 x1) :
    after opsB W (Proc.devRef .tc main_v8) = Read.val_main_v8 (F := F) x0 x1 := by
  unfold opsB; after_results_simp; rw [h5]; rfl

set_option maxRecDepth 32768 in
set_option maxHeartbeats 1600000 in
theorem stageB11 :
    after opsB W (Proc.devRef .tc main_v11) = Read.val_main_v11 (F := F) := by
  unfold opsB; after_results_simp; rfl

set_option maxRecDepth 32768 in
set_option maxHeartbeats 1600000 in
theorem stageC1 (h8 : W (Proc.devRef .tc main_v8) = Read.val_main_v8 (F := F) x0 x1) :
    after opsC1 W (Proc.devRef .tc main_call1_v5) = Read.val_main_call1_v5 (F := F) x0 x1 := by
  unfold opsC1; after_results_simp; rw [h8]
  -- the transports to and from each buffer's own type are removed first (the paired ones by `ofBuf_toBuf`, the outer
  -- one by `cast_heq`) and the logits are named: a fold over 8192 * 8192 indices must never be unfolded to meet a transport
  simp only [ofBuf_toBuf]
  unfold Read.val_main_call1_v5 Read.val_main_call1_v4 Read.val_main_call1_v3 Read.val_main_call1_v2 Read.val_main_call1_v1
    Read.val_main_call1_v0 Read.val_main_call1_cst Read.val_main_call1_cst_0
  generalize Read.val_main_v8 (F := F) x0 x1 = A
  refine eq_of_heq ((cast_heq _ _).trans (heq_of_eq ?_))
  rfl

set_option maxRecDepth 8192 in
theorem keepC1_11 : after opsC1 W (Proc.devRef .tc main_v11) = W (Proc.devRef .tc main_v11) := by
  unfold opsC1; after_results_simp

set_option maxRecDepth 32768 in
set_option maxHeartbeats 1600000 in
theorem stageC2 (hs : W (Proc.devRef .tc main_call1_v5) = Read.val_main_call1_v5 (F := F) x0 x1) :
    after opsC2 W (Proc.devRef .tc main_v12) = Read.val_main_v12 (F := F) x0 x1 := by
  unfold opsC2; after_results_simp; rw [hs]; rfl

set_option maxRecDepth 8192 in
theorem keepC2_11 : after opsC2 W (Proc.devRef .tc main_v11) = W (Proc.devRef .tc main_v11) := by
  unfold opsC2; after_results_simp

set_option maxRecDepth 32768 in
set_option maxHeartbeats 1600000 in
theorem stageD1 (h11 : W (Proc.devRef .tc main_v11) = Read.val_main_v11 (F := F)) :
    after opsD1 W (Proc.devRef .tc main_call2_v5) = Read.val_main_call2_v5 (F := F) := by
  unfold opsD1; after_results_simp; rw [h11]; rfl

set_option maxRecDepth 8192 in
theorem keepD1_12 : after opsD1 W (Proc.devRef .tc main_v12) = W (Proc.devRef .tc main_v12) := by
  unfold opsD1; after_results_simp

set_option maxRecDepth 32768 in
set_option maxHeartbeats 1600000 in
theorem stageD2 (hc5 : W (Proc.devRef .tc main_call2_v5) = Read.val_main_call2_v5 (F := F)) :
    after opsD2 W (Proc.devRef .tc main_call2_v12) = Read.val_main_call2_v12 (F := F) := by
  unfold opsD2; after_results_simp; rw [hc5]; rfl

set_option maxRecDepth 8192 in
theorem keepD2_12 : after opsD2 W (Proc.devRef .tc main_v12) = W (Proc.devRef .tc main_v12) := by
  unfold opsD2; after_results_simp

set_option maxRecDepth 8192 in
theorem keepD2_c5 : after opsD2 W (Proc.devRef .tc main_call2_v5) = W (Proc.devRef .tc main_call2_v5) := by
  unfold opsD2; after_results_simp

set_option maxRecDepth 32768 in
set_option maxHeartbeats 1600000 in
theorem stageE (h12 : W (Proc.devRef .tc main_v12) = Read.val_main_v12 (F := F) x0 x1)
    (hc5 : W (Proc.devRef .tc main_call2_v5) = Read.val_main_call2_v5 (F := F))
    (hc12 : W (Proc.devRef .tc main_call2_v12) = Read.val_main_call2_v12 (F := F)) :
    after opsE W (Proc.devRef .tc main_v18) = Read.val_main_v18 (F := F) x0 x1 := by
  unfold opsE; after_results_simp; rw [h12, hc5, hc12]; rfl

end Stages

/-- The result buffer after the whole line holds the last stage of the two arguments. -/
theorem after_v18 (V : Valuation τ sig (Elt F)) : after ops V (Proc.devRef .tc main_v18)
    = Read.val_main_v18 (F := F) (V (Proc.devRef .tc main_arg0)) (V (Proc.devRef .tc main_arg1)) := by
  rw [ops_split, after_append, after_append, after_append, after_append, after_append, after_append]
  have h5 := stageA (F := F) V
  have h8 := stageB8 _ _ _ h5
  have h11 := stageB11 (F := F) (after opsA V)
  have hs := stageC1 _ _ _ h8
  have h11a := (keepC1_11 (F := F) (after opsB (after opsA V))).trans h11
  have h12 := stageC2 _ _ _ hs
  have h11b := (keepC2_11 (F := F) (after opsC1 (after opsB (after opsA V)))).trans h11a
  have hc5 := stageD1 _ h11b
  have h12a := (keepD1_12 (F := F) (after opsC2 (after opsC1 (after opsB (after opsA V))))).trans h12
  have hc12 := stageD2 _ hc5
  have h12b := (keepD2_12 (F := F) (after opsD1 (after opsC2 (after opsC1 (after opsB (after opsA V)))))).trans h12a
  have hc5b := (keepD2_c5 (F := F) (after opsD1 (after opsC2 (after opsC1 (after opsB (after opsA V)))))).trans hc5
  exact stageE _ _ _ h12b hc5b hc12

set_option maxRecDepth 8192 in
set_option maxHeartbeats 24800000 in
/-- On every device, for any float values, from any memory with zero counters: every weakly fair execution of the
    program terminates with the result at the last stage of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = Read.val_main_v18 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (after_v18 _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Value

end
-- ==== Proof.RefLossLabels.lean ====
import proofs.«151313_j7121055776856_2_alg».proof.Proof.RefRead

/-!
  The integer side of the reference program. Row `n` of the 8192 rows is scored against column `n mod 4096`:
  the label array is two copies of `0, 1, …, 4095`, one under the other. A label is never negative and never above
  8191, so the index normalisation leaves it as it is, the bounds mask is all ones, and the gather reads, in row `n`
  of its operand, the entry of column `n mod 4096`.
-/

noncomputable section

namespace Cert.ReferenceIdeal.RefLoss

open Cert.ReferenceIdeal Cert.ReferenceIdeal.Gen Idealize.ShloMosaic Idealize.ShloMosaic.ValueIdx

/-- A natural number below 2³¹, as a 32-bit word read signed, is that number. -/
theorem toInt_small (k : Nat) (hk : k < 2 ^ 31) : (BitVec.ofNat 32 k).toInt = (k : Int) := by
  rw [BitVec.toInt_ofNat']
  exact Int.bmod_eq_of_le (by omega) (by omega)

/-- Row `n`'s label is `n mod 4096`. -/
theorem label_eq (n : Fin 8192) :
    Read.val_main_v11 (F := Ideal) (ix1 n) = BitVec.ofNat 32 (n.val % 4096) := by
  unfold Read.val_main_v11
  by_cases h : n.val < 4096
  · refine (concatenate_pair_apply_left (s₁ := S4096) (s₂ := S4096) (t := S8192) (0 : Fin 1)
      (Read.val_main_v9 (F := Ideal)) (Read.val_main_v10 (F := Ideal)) _ (ix1 n) rfl (ix1 (⟨n.val, h⟩ : Fin 4096))
      (fun b => by match b with | ⟨0, _⟩ => rfl)).trans ?_
    rw [Read.val_main_v9_apply]
    show BitVec.ofNat 32 n.val = _
    rw [Nat.mod_eq_of_lt h]
  · refine (concatenate_pair_apply_right (s₁ := S4096) (s₂ := S4096) (t := S8192) (0 : Fin 1)
      (Read.val_main_v9 (F := Ideal)) (Read.val_main_v10 (F := Ideal)) _ (ix1 n) rfl rfl
      (ix1 (⟨n.val - 4096, by have := n.isLt; omega⟩ : Fin 4096))
      (fun b hb => by match b, hb with | ⟨0, _⟩, hb => exact absurd rfl hb)
      (by show (n.val - 4096) + 4096 = n.val; omega)).trans ?_
    rw [Read.val_main_v10_apply]
    show BitVec.ofNat 32 (n.val - 4096) = _
    have : n.val - 4096 = n.val % 4096 := by have := n.isLt; omega
    rw [this]

/-- The labels as a column. -/
theorem label_col (n : Fin 8192) :
    Read.val_main_v13 (F := Ideal) (ix2 n (0 : Fin 1)) = BitVec.ofNat 32 (n.val % 4096) := by
  have e : Read.idx_main_v13 (ix2 n (0 : Fin 1)) = ix1 n :=
    funext fun a => Fin.ext (by match a with | ⟨0, _⟩ => rfl)
  rw [Read.val_main_v13_apply, e, label_eq]

/-- A label is not negative, so the normalised index is the label. -/
theorem index_eq (n : Fin 8192) (a b : Fin 1) :
    Read.val_main_call2_v5 (F := Ideal) (ix3 n a b) = BitVec.ofNat 32 (n.val % 4096) := by
  have e : Read.idx_main_call2_v5 (ix3 n a b) = ix2 n (0 : Fin 1) := funext fun c => Fin.ext (by
    match c with
    | ⟨0, _⟩ =>
      have := a.isLt; have := b.isLt
      show ((n.val * 1 + a.val) * 1 + b.val) / 1 = n.val; omega
    | ⟨1, _⟩ => rfl)
  have h0 : IntOp.cmpi .slt (BitVec.ofNat 32 (n.val % 4096)) 0#32 = 0#1 :=
    eq_zero_of_ne_one fun h => by
      have := IntOp.cmpi_slt.1 h
      rw [toInt_small _ (by omega), toInt_small 0 (by omega)] at this
      omega
  rw [Read.val_main_call2_v5_apply, e, Read.val_main_call2_v4_apply, Read.val_main_call2_v1_apply, label_col,
    Read.val_main_call2_v0_apply, Read.val_main_call2_c_apply, h0, select_zero]

/-- Every normalised index lies between 0 and 8191. -/
theorem inBounds_eq (i : S8192x1x1.Idx) : Read.val_main_call2_v11 (F := Ideal) i = 1#1 := by
  obtain ⟨n, a, b, rfl⟩ : ∃ (n : Fin 8192) (a b : Fin 1), i = ix3 n a b := ⟨i 0, i 1, i 2, eq_ix3 i⟩
  rw [Read.val_main_call2_v11_apply, Read.val_main_call2_v7_apply, Read.val_main_call2_v10_apply, index_eq,
    Read.val_main_call2_v6_apply, Read.val_main_call2_c_2_apply, Read.val_main_call2_v9_apply,
    Read.val_main_call2_v8_apply, Read.val_main_call2_c_1_apply]
  refine IntOp.andi_eq_one.2 ⟨IntOp.cmpi_sge.2 ?_, IntOp.cmpi_sle.2 ?_⟩
  · rw [toInt_small 0 (by omega), toInt_small (n.val % 4096) (by omega)]; omega
  · rw [toInt_small (n.val % 4096) (by omega), toInt_small 8191 (by omega)]; omega

/-- A conjunction of ones, started at one, is one. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- The bounds mask is all ones. -/
theorem mask_eq (j : S8192x1.Idx) : Read.val_main_call2_v12 (F := Ideal) j = 1#1 := by
  unfold Read.val_main_call2_v12
  rw [Host.reduce_eq_foldl, Read.val_main_call2_c_3_apply]
  exact foldl_andi_ones _ inBounds_eq _

/-- The gather at row `n`: the operand's row `n`, at the column the start index names, read signed and clamped. -/
theorem gather_row {α : Type} (x : S8192x8192.Idx → α) (idx : IVec S8192x1x1 32) (n k : Fin 8192)
    (hk : min (idx (ix3 n (0 : Fin 1) (0 : Fin 1))).toInt.toNat 8191 = k.val) :
    Host.gather gather_S8192x8192_S8192x1x1_S8192x1_n_1_0_0_1_2_11 x idx (ix2 n (0 : Fin 1)) = x (ix2 n k) := by
  unfold Host.gather
  refine congrArg x (funext fun a => Fin.ext ?_)
  show gather_S8192x8192_S8192x1x1_S8192x1_n_1_0_0_1_2_11.start (ix2 n (0 : Fin 1)) idx a
    + gather_S8192x8192_S8192x1x1_S8192x1_n_1_0_0_1_2_11.batchCoord (ix2 n (0 : Fin 1)) a
    + gather_S8192x8192_S8192x1x1_S8192x1_n_1_0_0_1_2_11.offCoord (ix2 n (0 : Fin 1)) a = (ix2 n k a).val
  have h0 : (0 : Fin 2) ∈ gather_S8192x8192_S8192x1x1_S8192x1_n_1_0_0_1_2_11.operandBatchingDims := List.mem_singleton.mpr rfl
  have h1 : (1 : Fin 2) ∈ gather_S8192x8192_S8192x1x1_S8192x1_n_1_0_0_1_2_11.startIndexMap := List.mem_singleton.mpr rfl
  have h1c : (1 : Fin 2) ∈ gather_S8192x8192_S8192x1x1_S8192x1_n_1_0_0_1_2_11.collapsedSliceDims := List.mem_singleton.mpr rfl
  have h1b : (1 : Fin 2) ∉ gather_S8192x8192_S8192x1x1_S8192x1_n_1_0_0_1_2_11.operandBatchingDims := fun h => absurd (List.mem_singleton.mp h) (by decide)
  obtain rfl | rfl : a = (0 : Fin 2) ∨ a = (1 : Fin 2) := by
    match a with
    | ⟨0, _⟩ => exact Or.inl rfl
    | ⟨1, _⟩ => exact Or.inr rfl
  · -- the batching axis: the row of the result
    rw [GatherDims.start_batching gather_S8192x8192_S8192x1x1_S8192x1_n_1_0_0_1_2_11 _ _ (0 : Fin 2) h0,
      GatherDims.offCoord_eq_zero gather_S8192x8192_S8192x1x1_S8192x1_n_1_0_0_1_2_11 _ (0 : Fin 2) (fun h => ((GatherDims.mem_sKept gather_S8192x8192_S8192x1x1_S8192x1_n_1_0_0_1_2_11 _).mp h).2 h0)]
    unfold GatherDims.batchCoord
    rw [dif_pos h0]
    show 0 + n.val + 0 = n.val
    omega
  · -- the collapsed axis: the start index, clamped
    rw [GatherDims.batchCoord_eq_zero gather_S8192x8192_S8192x1x1_S8192x1_n_1_0_0_1_2_11 _ (1 : Fin 2) h1b,
      GatherDims.offCoord_eq_zero gather_S8192x8192_S8192x1x1_S8192x1_n_1_0_0_1_2_11 _ (1 : Fin 2) (fun h => ((GatherDims.mem_sKept gather_S8192x8192_S8192x1x1_S8192x1_n_1_0_0_1_2_11 _).mp h).1 h1c)]
    unfold GatherDims.start
    rw [dif_pos h1]
    have hsi : gather_S8192x8192_S8192x1x1_S8192x1_n_1_0_0_1_2_11.siIdx (ix2 n (0 : Fin 1)) ⟨List.idxOf (1 : Fin 2) gather_S8192x8192_S8192x1x1_S8192x1_n_1_0_0_1_2_11.startIndexMap,
        List.idxOf_lt_length_iff.2 h1⟩ = ix3 n (0 : Fin 1) (0 : Fin 1) := by
      funext b; refine Fin.ext ?_
      match b with
      | ⟨0, _⟩ => rfl
      | ⟨1, _⟩ => rfl
      | ⟨2, _⟩ => rfl
    rw [hsi]
    exact hk

/-- The gather of the reference program reads, in row `n`, the column `n mod 4096`. -/
theorem gather_eq {α : Type} (x : S8192x8192.Idx → α) (n : Fin 8192) :
    Host.gather gather_S8192x8192_S8192x1x1_S8192x1_n_1_0_0_1_2_11 x (Read.val_main_call2_v5 (F := Ideal))
        (ix2 n (0 : Fin 1))
      = x (ix2 n (⟨n.val % 4096, by omega⟩ : Fin 8192)) := by
  refine gather_row x _ n _ ?_
  rw [index_eq, toInt_small _ (by omega)]
  show min ((n.val % 4096 : Nat) : Int).toNat 8191 = n.val % 4096
  omega

end Cert.ReferenceIdeal.RefLoss

end
-- ==== Proof.RefLossSoftmax.lean ====
import proofs.«151313_j7121055776856_2_alg».proof.Proof.RefRead
import proofs.«151313_j7121055776856_2_alg».proof.Proof.Spec

/-!
  The float side of the reference program after the unit rows, read at an index: the logits (the similarity of two
  rows divided by one half), each row's largest logit, the logits less that, the row sums of their exponentials, and
  the log-softmax array. Everything is stated for any rows `X` that the program's array of unit rows reads as, so
  nothing here looks inside the unit rows.
-/

open scoped BigOperators

noncomputable section

namespace Cert.ReferenceIdeal.RefLoss

open Cert.ReferenceIdeal Cert.ReferenceIdeal.Gen Idealize.ShloMosaic Idealize.ShloMosaic.ValueIdx

section
variable (x0 x1 : (⟨S4096x128, .f32⟩ : BufTy).Contents (Elt Ideal)) (X : Contrast.Rows)
  (hX : ∀ (n : Fin 8192) (d : Fin 128), Read.val_main_v5 (F := Ideal) x0 x1 (ix2 n d) = X n d)
include hX

/-- The logits: the contraction of rows `n` and `m` over the 128 entries, divided by one half. -/
theorem logit_eq (n m : Fin 8192) :
    Read.val_main_v8 (F := Ideal) x0 x1 (ix2 n m) = Contrast.logitR X n m := by
  have el : ∀ k : Fin 128, Read.lidx_main_v6 (ix2 n m) k = ix2 n k := fun k => funext fun a => Fin.ext (by match a with | ⟨0, _⟩ => rfl | ⟨1, _⟩ => rfl)
  have er : ∀ k : Fin 128, Read.ridx_main_v6 (ix2 n m) k = ix2 m k := fun k => funext fun a => Fin.ext (by match a with | ⟨0, _⟩ => rfl | ⟨1, _⟩ => rfl)
  rw [Read.val_main_v8_apply, Read.val_main_v6_apply, Read.val_main_v7_apply, Read.val_main_cst_0_apply]
  simp only [el, er, hX, Ideal.hostDivf_def, Ideal.ofBits_def]
  rfl

/-- A row's largest logit: the fold of `max` over the row from `-∞`; the further `max` with `-∞` changes nothing. -/
theorem rowMax_eq (n : Fin 8192) :
    Read.val_main_call1_v2 (F := Ideal) x0 x1 (ix1 n) = Contrast.rowMax (Contrast.logitR X) n := by
  have hred : S8192x8192.Reduces [1] S8192 := by decide
  have hf : (Read.val_main_v8 (F := Ideal) x0 x1 ∘ hred.lift (ix1 n))
      = fun m : Fin 8192 => Contrast.logitR X n m :=
    funext fun k => (congrArg (Read.val_main_v8 (F := Ideal) x0 x1)
      (funext fun c => Fin.ext (by match c with | ⟨0, _⟩ => rfl | ⟨1, _⟩ => rfl) :
        hred.lift (ix1 n) k = ix2 n k)).trans (logit_eq x0 x1 X hX n k)
  have hb : ∀ y : EReal, max (Ideal.ofBits .f32 0xFF800000#32) y = y := fun y => by
    simp [Ideal.ofBits, Ideal.ieee]
  rw [Read.val_main_call1_v2_apply, Read.val_main_call1_v1_apply, Read.val_main_call1_cst_0_apply]
  unfold Read.val_main_call1_v0
  rw [Host.reduce_eq_fold_single FloatOps.maximumf _ _ reducesTo_S8192x8192_S8192_d1 hred h_S_,
    Read.val_main_call1_cst_apply, hf]
  exact hb _

/-- The logits less their row's largest. -/
theorem shifted_eq (n m : Fin 8192) :
    Read.val_main_call1_v5 (F := Ideal) x0 x1 (ix2 n m)
      = Contrast.logitR X n m - Contrast.rowMax (Contrast.logitR X) n := by
  have e4 : Read.idx_main_call1_v4 (ix2 n m) = ix2 n (0 : Fin 1) := funext fun a => Fin.ext (by match a with | ⟨0, _⟩ => rfl | ⟨1, _⟩ => rfl)
  have e3 : Read.idx_main_call1_v3 (ix2 n (0 : Fin 1)) = ix1 n := funext fun a => Fin.ext (by match a with | ⟨0, _⟩ => rfl)
  rw [Read.val_main_call1_v5_apply, Read.val_main_call1_v4_apply, e4, Read.val_main_call1_v3_apply, e3,
    rowMax_eq x0 x1 X hX, logit_eq x0 x1 X hX]
  rfl

/-- The row sums of the exponentials. -/
theorem sumExp_eq (n : Fin 8192) :
    Read.val_main_call1_v7 (F := Ideal) x0 x1 (ix1 n) = Contrast.sumExp (Contrast.logitR X) n := by
  have e : ∀ k : Fin 8192, Read.idx_main_call1_v7 (ix1 n) k = ix2 n k := fun k => funext fun a => Fin.ext (by match a with | ⟨0, _⟩ => rfl | ⟨1, _⟩ => rfl)
  rw [Read.val_main_call1_v7_apply, Read.val_main_call1_cst_1_apply]
  simp only [e, Read.val_main_call1_v6_apply, shifted_eq x0 x1 X hX, Ideal.ofBits_def, Ideal.ofBits_zero_f32, zero_add,
    Ideal.hostUnary_exp_def]
  rfl

/-- The log-softmax array. -/
theorem logSoftmax_eq (n m : Fin 8192) :
    Read.val_main_v12 (F := Ideal) x0 x1 (ix2 n m)
      = (Contrast.logitR X n m - Contrast.rowMax (Contrast.logitR X) n)
          - Ideal.log (Contrast.sumExp (Contrast.logitR X) n) := by
  have e10 : Read.idx_main_call1_v10 (ix2 n m) = ix2 n (0 : Fin 1) := funext fun a => Fin.ext (by match a with | ⟨0, _⟩ => rfl | ⟨1, _⟩ => rfl)
  have e8 : Read.idx_main_call1_v8 (ix2 n (0 : Fin 1)) = ix1 n := funext fun a => Fin.ext (by match a with | ⟨0, _⟩ => rfl)
  rw [Read.val_main_v12_apply, Read.val_main_call1_v10_apply, e10, Read.val_main_call1_v9_apply,
    Read.val_main_call1_v8_apply, e8, sumExp_eq x0 x1 X hX, shifted_eq x0 x1 X hX]
  rfl

end

end Cert.ReferenceIdeal.RefLoss

end
-- ==== Proof.RefLoss.lean ====
import proofs.«151313_j7121055776856_2_alg».proof.Proof.RefLossUnit
import proofs.«151313_j7121055776856_2_alg».proof.Proof.RefLossLabels
import proofs.«151313_j7121055776856_2_alg».proof.Proof.RefLossSoftmax

/-!
  The reference program read back whole. Row `n` takes from the log-softmax array its entry at column `n mod 4096`,
  the bounds mask keeps it, its negation is the row's loss in the second spelling, and the 8192 row losses are added and
  divided by 8192: the second spelling of the total loss, of the unit rows.
-/

open scoped BigOperators

noncomputable section

namespace Cert.ReferenceIdeal.RefLoss

open Cert.ReferenceIdeal Cert.ReferenceIdeal.Gen Idealize.ShloMosaic Idealize.ShloMosaic.ValueIdx

/-- A rank-1 index set of 8192 entries is `Fin 8192` … -/
def rowEquiv : S8192.Idx ≃ Fin 8192 where
  toFun i := i 0
  invFun := ix1
  left_inv i := (eq_ix1 i).symm
  right_inv _ := rfl

/-- … so a sum over it is the sum over the 8192 rows. -/
theorem sum_rows {M : Type*} [AddCommMonoid M] (f : S8192.Idx → M) : ∑ j, f j = ∑ n : Fin 8192, f (ix1 n) :=
  (Equiv.sum_comp rowEquiv.symm f).symm

section
variable (x0 x1 : (⟨S4096x128, .f32⟩ : BufTy).Contents (Elt Ideal)) (X : Contrast.Rows)
  (hX : ∀ (n : Fin 8192) (d : Fin 128), Read.val_main_v5 (F := Ideal) x0 x1 (ix2 n d) = X n d)
include hX

/-- What row `n` takes from the log-softmax array: its entry at the partner column. -/
theorem taken_eq (n : Fin 8192) :
    Read.val_main_v14 (F := Ideal) x0 x1 (ix2 n (0 : Fin 1))
      = (Contrast.logitR X n (Contrast.partner n) - Contrast.rowMax (Contrast.logitR X) n)
          - Ideal.log (Contrast.sumExp (Contrast.logitR X) n) := by
  rw [Read.val_main_v14_apply, mask_eq, select_one]
  unfold Read.val_main_call2_v13
  rw [gather_eq]
  exact logSoftmax_eq x0 x1 X hX n _

/-- The row losses. -/
theorem nll_eq (n : Fin 8192) :
    Read.val_main_v16 (F := Ideal) x0 x1 (ix1 n) = Contrast.nllR X n := by
  have e : Read.idx_main_v15 (ix1 n) = ix2 n (0 : Fin 1) := funext fun a => Fin.ext (by
    match a with
    | ⟨0, _⟩ => show n.val / 1 = n.val; omega
    | ⟨1, _⟩ => rfl)
  rw [Read.val_main_v16_apply, Read.val_main_v15_apply, e, taken_eq x0 x1 X hX]
  rfl

/-- The total: the row losses added and divided by 8192. -/
theorem total_eq : Read.val_main_v18 (F := Ideal) x0 x1 = fun _ => Contrast.lossR X := by
  funext i
  rw [Read.val_main_v18_apply, Read.val_main_v17_apply, Read.val_main_cst_1_apply, Read.val_main_cst_2_apply, sum_rows]
  simp only [nll_eq x0 x1 X hX, Ideal.ofBits_def, Ideal.ofBits_zero_f32, zero_add, Ideal.hostDivf_def]
  rfl

end

/-- The reference program's result is the second spelling of the loss, of the unit rows. -/
theorem loss_eq (x0 x1 : (⟨S4096x128, .f32⟩ : BufTy).Contents (Elt Ideal)) :
    Read.val_main_v18 (F := Ideal) x0 x1
      = fun _ => Contrast.lossR (Contrast.unit (Contrast.stack (Contrast.rows2 x0) (Contrast.rows2 x1))) :=
  total_eq x0 x1 _ (unit_eq x0 x1)

end Cert.ReferenceIdeal.RefLoss

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.Bridge.lean ====
/-
  The two spellings of the contrastive loss agree on real rows.

  Everything is carried out in the real numbers after choosing, once, a real witness for every entry.

  * The float words: `two = 2`, `half = 1/2`, `k1024 = 1024`, `k8192 = 8192`, `negInf = ⊥`, and `floor` is a positive
    real.
  * Stacking real rows gives real rows (a case split). Dividing a real row by its floored length gives a real row: the
    sum of squares is a non-negative real, its square root a real, the larger of that and the positive floor a positive
    real, and a real divided by a nonzero real is a real.
  * A similarity of real rows is a real sum of products, so "times 2" and "divided by 1/2" give the same real logit.
  * The fold of `max` from `⊥` over a nonempty finite family of reals is a real `M`; the sum of `exp (ℓ - M)` over a
    nonempty family is a positive real `S`, so its logarithm is the real logarithm. With `a` the partner's logit,
    `((0 - a) + M) + log S` and `-((a - M) - log S)` are both the real `M + log S - a` (`row_real`, stated over an
    abstract finite index type so that no sum of 8192 terms is ever opened).
  * The totals: the array that holds tile `p / 8`'s partial sum at entry `(p, q)`, `p < 256`, `q < 128`, adds up to
    `1024` times the sum over all `32 · 256` rows (`totals`: each tile occurs for 8 values of `p` and 128 of `q`);
    dividing by `1024` gives the plain sum, and both spellings then divide by `8192`.
-/
import proofs.«151313_j7121055776856_2_alg».proof.Proof.Spec
import proofs.«151313_j7121055776856_2_alg».proof.Proof.LibRealSums
import proofs.«151313_j7121055776856_2_alg».proof.Proof.LibTiles
import Idealize.ShloMosaic.PureOps.Ideal
import Mathlib.Tactic.Ring
import Mathlib.Tactic.NormNum
import Mathlib.Tactic.Positivity

open scoped BigOperators

noncomputable section

namespace Contrast

open Idealize.ShloMosaic

/-! ### The float words -/

theorem two_eq : two = ((2 : ℝ) : EReal) := by
  simp [two, Ideal.ofBits, Ideal.ieee, -EReal.coe_mul]
  norm_num

theorem half_eq : half = ((1/2 : ℝ) : EReal) := by
  simp [half, Ideal.ofBits, Ideal.ieee, -EReal.coe_mul]
  norm_num

theorem k1024_eq : k1024 = ((1024 : ℝ) : EReal) := by
  simp [k1024, Ideal.ofBits, Ideal.ieee, -EReal.coe_mul]
  norm_num

theorem k8192_eq : k8192 = ((8192 : ℝ) : EReal) := by
  simp [k8192, Ideal.ofBits, Ideal.ieee, -EReal.coe_mul]
  norm_num

theorem negInf_eq : negInf = ⊥ := by
  simp [negInf, Ideal.ofBits, Ideal.ieee, -EReal.coe_mul]

/-- The floor under a row's length is a positive real number. -/
theorem floor_pos : ∃ e : ℝ, 0 < e ∧ floor = (e : EReal) := by
  refine ⟨_, ?_, by simp [floor, Ideal.ofBits, Ideal.ieee, -EReal.coe_mul]; rfl⟩
  positivity

/-! ### One row -/

/-- Reading a real number on the extended reals keeps the order, hence commutes with `max`. -/
theorem coe_max_real (a b : ℝ) : ((max a b : ℝ) : EReal) = max (a : EReal) (b : EReal) :=
  EReal.coe_strictMono.monotone.map_max

/-- The fold of `max` from `⊥` over a nonempty finite set of real numbers is a real number. -/
theorem fold_max_real {ι : Type*} (s : Finset ι) (f : ι → ℝ) (hs : s.Nonempty) :
    ∃ M : ℝ, s.fold max (⊥ : EReal) (fun m => ((f m : ℝ) : EReal)) = (M : EReal) := by
  classical
  induction s using Finset.induction_on with
  | empty => exact absurd hs (by simp)
  | insert a t ha ih =>
    rw [Finset.fold_insert ha]
    by_cases ht : t.Nonempty
    · obtain ⟨M, hM⟩ := ih ht
      exact ⟨max (f a) M, by rw [hM, coe_max_real]⟩
    · rw [Finset.not_nonempty_iff_eq_empty] at ht
      subst ht
      exact ⟨f a, by simp⟩

/-- For a row of real logits `ℓ` and a real partner logit `a`, both spellings of the row's loss are the same real
    number: with `M` the largest logit and `S = ∑ exp (ℓ - M) > 0`, each is `M + log S - a`. -/
theorem row_real {ι : Type*} [Fintype ι] [Nonempty ι] (ℓ : ι → ℝ) (a : ℝ) :
    ∃ ρ : ℝ,
      ((0 - (a : EReal)) + (Finset.univ : Finset ι).fold max ⊥ (fun m => ((ℓ m : ℝ) : EReal)))
        + Ideal.log (∑ m : ι, Ideal.exp (((ℓ m : ℝ) : EReal)
            - (Finset.univ : Finset ι).fold max ⊥ (fun m => ((ℓ m : ℝ) : EReal)))) = (ρ : EReal) ∧
      -(((a : EReal) - (Finset.univ : Finset ι).fold max ⊥ (fun m => ((ℓ m : ℝ) : EReal)))
        - Ideal.log (∑ m : ι, Ideal.exp (((ℓ m : ℝ) : EReal)
            - (Finset.univ : Finset ι).fold max ⊥ (fun m => ((ℓ m : ℝ) : EReal))))) = (ρ : EReal) := by
  obtain ⟨M, hM⟩ := fold_max_real (Finset.univ : Finset ι) ℓ Finset.univ_nonempty
  rw [hM]
  have hS : (∑ m : ι, Ideal.exp (((ℓ m : ℝ) : EReal) - (M : EReal)))
      = ((∑ m : ι, Real.exp (ℓ m - M) : ℝ) : EReal) := by
    rw [RealSums.coe_sum_real]
    refine Finset.sum_congr rfl fun m _ => ?_
    rw [← EReal.coe_sub, Ideal.exp_coe]
  have hpos : 0 < ∑ m : ι, Real.exp (ℓ m - M) :=
    Finset.sum_pos (fun m _ => Real.exp_pos _) Finset.univ_nonempty
  rw [hS, Ideal.log_coe, if_neg (not_le.mpr hpos)]
  refine ⟨M + Real.log (∑ m : ι, Real.exp (ℓ m - M)) - a, ?_, ?_⟩
  · rw [← EReal.coe_zero, ← EReal.coe_sub, ← EReal.coe_add, ← EReal.coe_add]
    congr 1; ring
  · rw [← EReal.coe_sub, ← EReal.coe_sub, ← EReal.coe_neg]
    congr 1; ring

/-! ### Real rows stay real -/

/-- Stacking two batches of real rows gives real rows. -/
theorem stack_real {a b : Fin 4096 → Fin 128 → EReal} (ha : IsReal a) (hb : IsReal b) : IsReal (stack a b) := by
  intro n d
  unfold stack
  split
  · exact ha _ d
  · exact hb _ d

/-- Real rows divided by their floored lengths are real rows: the floored length is a positive real. -/
theorem unit_real {z : Rows} (hz : IsReal z) : IsReal (unit z) := by
  choose r hr using hz
  obtain ⟨e, he, hfl⟩ := floor_pos
  intro n d
  have hsum : (∑ d : Fin 128, z n d * z n d) = ((∑ d : Fin 128, r n d * r n d : ℝ) : EReal) :=
    RealSums.sum_mul_of_real _ _ _ _ (hr n) (hr n)
  have hnn : 0 ≤ ∑ d : Fin 128, r n d * r n d := Finset.sum_nonneg fun d _ => mul_self_nonneg _
  have hlen : len z n = ((max (Real.sqrt (∑ d : Fin 128, r n d * r n d)) e : ℝ) : EReal) := by
    unfold len
    rw [hsum, Ideal.sqrt_coe, if_neg (not_lt.mpr hnn), hfl, coe_max_real]
  have hne : max (Real.sqrt (∑ d : Fin 128, r n d * r n d)) e ≠ 0 :=
    ne_of_gt (lt_of_lt_of_le he (le_max_right _ _))
  refine ⟨r n d * (1 / max (Real.sqrt (∑ d : Fin 128, r n d * r n d)) e), ?_⟩
  show Ideal.div (z n d) (len z n) = _
  rw [hlen, Ideal.div_coe hne, hr n d, EReal.coe_mul]

/-! ### The row losses -/

/-- The similarity of two real rows is the real sum of products. -/
theorem sim_real {x : Rows} (r : Fin 8192 → Fin 128 → ℝ) (hr : ∀ n d, x n d = (r n d : EReal))
    (n m : Fin 8192) : sim x n m = ((∑ d : Fin 128, r n d * r m d : ℝ) : EReal) :=
  RealSums.sum_mul_of_real _ _ _ _ (hr n) (hr m)

/-- On real rows both spellings of a row's loss are one real number. -/
theorem nll_real {x : Rows} (hx : IsReal x) :
    ∃ ρ : Fin 8192 → ℝ, ∀ n, nllK x n = (ρ n : EReal) ∧ nllR x n = (ρ n : EReal) := by
  choose r hr using hx
  have hK : ∀ n m, sim x n m * two = ((2 * ∑ d : Fin 128, r n d * r m d : ℝ) : EReal) := by
    intro n m
    rw [sim_real r hr, two_eq, ← EReal.coe_mul, mul_comm]
  have hR : ∀ n m, Ideal.div (sim x n m) half = ((2 * ∑ d : Fin 128, r n d * r m d : ℝ) : EReal) := by
    intro n m
    rw [sim_real r hr, half_eq, Ideal.div_coe (by norm_num), ← EReal.coe_mul]
    congr 1; ring
  have key : ∀ n, ∃ ρ : ℝ, nllK x n = (ρ : EReal) ∧ nllR x n = (ρ : EReal) := by
    intro n
    obtain ⟨ρ, h1, h2⟩ := row_real (fun m : Fin 8192 => 2 * ∑ d : Fin 128, r n d * r m d)
      (2 * ∑ d : Fin 128, r n d * r (partner n) d)
    refine ⟨ρ, ?_, ?_⟩
    · simp only [nllK, rowMax, sumExp, logitK, negInf_eq, hK]
      exact h1
    · simp only [nllR, rowMax, sumExp, logitR, negInf_eq, hR]
      exact h2
  choose ρ hρ using key
  exact ⟨ρ, hρ⟩

/-! ### The totals -/

/-- Counting: adding `128` copies of tile `p / 8`'s sum for each `p < 256` counts every one of the `32 · 256` rows
    `8 · 128 = 1024` times. -/
theorem totals (f : ℕ → ℝ) :
    (∑ p : Fin 256, ∑ _q : Fin 128, ∑ j : Fin 256, f (p.val / 8 * 256 + j.val))
      = 1024 * ∑ n : Fin 8192, f n.val := by
  have hR : (∑ n : Fin 8192, f n.val) = ∑ J : Fin 32, ∑ b : Fin 256, f (J.val * 256 + b.val) :=
    (Tiles.sum_tiles 32 256 f).symm
  have hL : (∑ p : Fin 256, ∑ _q : Fin 128, ∑ j : Fin 256, f (p.val / 8 * 256 + j.val))
      = ∑ J : Fin 32, ∑ b : Fin 8, ∑ _q : Fin 128, ∑ j : Fin 256, f ((J.val * 8 + b.val) / 8 * 256 + j.val) :=
    (Tiles.sum_tiles 32 8 (fun k => ∑ _q : Fin 128, ∑ j : Fin 256, f (k / 8 * 256 + j.val))).symm
  rw [hL, hR, Finset.mul_sum]
  refine Finset.sum_congr rfl fun J _ => ?_
  have hdiv : ∀ b : Fin 8, (J.val * 8 + b.val) / 8 = J.val := fun b => by have := b.isLt; omega
  simp only [hdiv, Finset.sum_const, Finset.card_univ, Fintype.card_fin, nsmul_eq_mul]
  norm_num
  ring

/-- On real rows the two totals agree. -/
theorem loss_eq {x : Rows} (hx : IsReal x) : lossK x = lossR x := by
  obtain ⟨ρ, hρ⟩ := nll_real hx
  let f : ℕ → ℝ := fun k => if h : k < 8192 then ρ ⟨k, h⟩ else 0
  have hf : ∀ n : Fin 8192, f n.val = ρ n := fun n => dif_pos n.isLt
  have htile : ∀ t : Fin 32, tileK x t = ((∑ j : Fin 256, f (t.val * 256 + j.val) : ℝ) : EReal) := by
    intro t
    unfold tileK
    rw [RealSums.coe_sum_real]
    refine Finset.sum_congr rfl fun j _ => ?_
    rw [(hρ _).1]
    exact congrArg _ (hf ⟨t.val * 256 + j.val, by have := t.isLt; have := j.isLt; omega⟩).symm
  have hsumK : (∑ p : Fin 256, ∑ _q : Fin 128, tileK x ⟨p.val / 8, by have := p.isLt; omega⟩)
      = ((1024 * ∑ n : Fin 8192, ρ n : ℝ) : EReal) := by
    have h0 : (∑ n : Fin 8192, ρ n) = ∑ n : Fin 8192, f n.val :=
      Finset.sum_congr rfl fun n _ => (hf n).symm
    rw [h0, ← totals f, RealSums.coe_sum_real]
    refine Finset.sum_congr rfl fun p _ => ?_
    rw [RealSums.coe_sum_real]
    exact Finset.sum_congr rfl fun q _ => htile _
  have hsumR : (∑ n : Fin 8192, nllR x n) = ((∑ n : Fin 8192, ρ n : ℝ) : EReal) := by
    rw [RealSums.coe_sum_real]
    exact Finset.sum_congr rfl fun n _ => (hρ n).2
  have hin : Ideal.div ((1024 * ∑ n : Fin 8192, ρ n : ℝ) : EReal) ((1024 : ℝ) : EReal)
      = ((∑ n : Fin 8192, ρ n : ℝ) : EReal) := by
    rw [Ideal.div_coe (by norm_num), ← EReal.coe_mul]
    congr 1
    ring
  unfold lossK lossR
  rw [hsumK, hsumR, k1024_eq, hin]

end Contrast

end
-- ==== Proof.Finite.lean ====
/-
  From the printed finiteness precondition to "every entry is a real number".

  The precondition computes, for each of the two arguments, `|x| < +∞` entry by entry, takes the conjunction of all
  entries (a reduction by `and` from the constant 1 over both axes) and then the conjunction of the two results. If the
  result is 1, both reductions are 1, so every entry comparison is 1: `max x (-x) < ⊤` on the extended reals, the
  word 0x7F800000 denoting `⊤`. That excludes `x = ⊤` (then `max x (-x) = ⊤`) and `x = ⊥` (then `-x = ⊤`), so `x` is
  the reading of a real number.
-/
import proofs.«151313_j7121055776856_2_alg».proof.Pre_finite_inputs
import proofs.«151313_j7121055776856_2_alg».proof.Proof.Gen.Pre_finite_inputs
import proofs.«151313_j7121055776856_2_alg».proof.Proof.Spec
import Idealize.ShloMosaic.Lib.ReduceAll
import Idealize.ShloMosaic.Lib.Affine
import Idealize.ShloMosaic.Lib.ValueIdx
import Idealize.ShloMosaic.Lib.Pipeline.Value

noncomputable section

namespace Cert.Pre_finite_inputs.Finite

open Idealize.ShloMosaic Cert.Pre_finite_inputs

/-- The rank-0 shape has one index. -/
instance subsingleton_idx : Subsingleton S_.Idx := ⟨fun a b => funext fun d => d.elim0⟩

/-- The word 0x7F800000 denotes `+∞`. -/
theorem inf_eq : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One argument: if the conjunction over all entries of `|x| < +∞` is 1, every entry of `x` is a real number. -/
theorem real_of_all (x : FVec Ideal S4096x128 .f32)
    (hb : S_.BroadcastsInDim S4096x128 (![] : Fin 0 → Fin S4096x128.rank))
    (hr : S4096x128.ReducesTo [0, 1] S_) (hS : 0 < S_.numel)
    (h : Host.reduce IntOp.andi
        (cmpf .olt (Host.absf x) (broadcastInDim S4096x128 ![] hb (constant S_ .f32 0x7F800000#32)))
        (constantI S_ 1 1#1) hr hS ValueIdx.ix0 = 1#1) :
    Contrast.IsReal (Contrast.rows2 x) := by
  intro n d
  have h1 := Host.reduce_andi_all _ _ hr hS ValueIdx.ix0 h (ValueIdx.ix2 n d)
  have h2 : Ideal.cmp .olt (max (x (ValueIdx.ix2 n d)) (-(x (ValueIdx.ix2 n d))))
      (Ideal.ofBits .f32 0x7F800000#32) = 1#1 := h1
  rw [inf_eq] at h2
  have h3 : max (x (ValueIdx.ix2 n d)) (-(x (ValueIdx.ix2 n d))) < ⊤ := by
    by_contra hc
    simp [Ideal.cmp, hc] at h2
  exact real_of_abs_lt_top _ h3

/-- Both arguments of the precondition have only real entries. -/
theorem real_of_pre (x0 x1 : FVec Ideal Cert.Pre_finite_inputs.S4096x128 .f32)
    (h : Cert.Pre_finite_inputs.fn (F := Ideal) x0 x1 = fun _ => 1#1) :
    Contrast.IsReal (Contrast.rows2 x0) ∧ Contrast.IsReal (Contrast.rows2 x1) := by
  have h0 := congrFun h ValueIdx.ix0
  dsimp only [Cert.Pre_finite_inputs.fn] at h0
  obtain ⟨ha, hb⟩ := IntOp.andi_eq_one.1 h0
  exact ⟨real_of_all x0 _ _ _ ha, real_of_all x1 _ _ _ hb⟩

end Cert.Pre_finite_inputs.Finite

end
-- ==== Proof.lean ====
/-
  The certificate: a contrastive loss computed by a tiled kernel and by a plain reference are the same extended real.

  Both programs stack two batches of 4096 rows of 128 entries, divide every row by its floored Euclidean length, and
  score row `n` against row `n mod 4096` by minus the log-softmax of twice the similarities, averaged over the 8192 rows
  (proof/Proof/Spec.lean states the two spellings, `lossK` and `lossR`).

  * The kernel program: the host computes the unit rows; grid point `t` of 32 finds the whole array of unit rows in its
    staging buffer, forms the 256 by 8192 logits of tile `t` by one matrix product, the row maxima, the sums of
    exponentials and the partner logits, adds up the tile's 256 row losses and stores that one number in all 8 by 128
    entries of its output block; the host adds up all entries and divides by 1024 and by 8192. Its run ends with the
    result at `lossK` of the unit rows (KernelTile, BodyValue, KernelPrefix, KernelOut, KernelFinal).
  * The reference program, a straight line of host operations, ends with the result at `lossR` of the unit rows (RefRun
    for the run, RefLossUnit and RefLoss for the stages read at an index).
  * On real entries `lossK = lossR` (Bridge): division by one half is multiplication by two; on reals
    `(0 - a) + M + c = -((a - M) - c)`; a number stored 1024 times, added up and divided by 1024 is the number. The
    entries are real because the precondition makes every input finite (Finite) and a real row divided by its positive
    length is real.

  The three frame claims are the programs' runs with the results forgotten; the kernel's idealization rewrote nothing.
-/
import proofs.«151313_j7121055776856_2_alg».proof.Defs
import proofs.«151313_j7121055776856_2_alg».proof.Proof.Gen.Kernel
import proofs.«151313_j7121055776856_2_alg».proof.Proof.Gen.Kernel.Skeleton
import proofs.«151313_j7121055776856_2_alg».proof.Proof.Gen.Kernel.Launch
import proofs.«151313_j7121055776856_2_alg».proof.Proof.Gen.Kernel.Points
import proofs.«151313_j7121055776856_2_alg».proof.Proof.Gen.Kernel.Frame
import proofs.«151313_j7121055776856_2_alg».proof.Proof.Gen.KernelIdeal
import proofs.«151313_j7121055776856_2_alg».proof.Proof.Gen.KernelIdeal.Skeleton
import proofs.«151313_j7121055776856_2_alg».proof.Proof.Gen.KernelIdeal.Launch
import proofs.«151313_j7121055776856_2_alg».proof.Proof.Gen.KernelIdeal.Points
import proofs.«151313_j7121055776856_2_alg».proof.Proof.Gen.KernelIdeal.Frame
import proofs.«151313_j7121055776856_2_alg».proof.Proof.Gen.ReferenceIdeal
import proofs.«151313_j7121055776856_2_alg».proof.Proof.Gen.Pre_finite_inputs
import proofs.«151313_j7121055776856_2_alg».proof.Proof.KernelFinal
import proofs.«151313_j7121055776856_2_alg».proof.Proof.RefRun
import proofs.«151313_j7121055776856_2_alg».proof.Proof.RefLoss
import proofs.«151313_j7121055776856_2_alg».proof.Proof.Bridge
import proofs.«151313_j7121055776856_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two inputs, the kernel program ends at the first spelling of the loss of the unit
    rows and the reference at the second; the inputs being finite the unit rows are real, and there the two agree. -/
theorem algebraic : Cert.algebraic_KernelIdeal_ReferenceIdeal := by
  intro m ρ m' ρ' hpre hagree
  refine ⟨fun c => fun _ => Contrast.lossK (Cert.KernelIdeal.Prefix.unitRows m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.RefLoss.loss_eq]
  funext _
  obtain ⟨h0, h1⟩ := Cert.Pre_finite_inputs.Finite.real_of_pre _ _ (hpre c)
  exact (Contrast.loss_eq (Contrast.unit_real (Contrast.stack_real h0 h1))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
